-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x512 : Shape := ⟨2, ![4000, 512]⟩
abbrev S4000x128 : Shape := ⟨2, ![4000, 128]⟩
abbrev S1700000x128 : Shape := ⟨2, ![1700000, 128]⟩
abbrev S1x128 : Shape := ⟨2, ![1, 128]⟩
abbrev S128x128 : Shape := ⟨2, ![128, 128]⟩
abbrev S100000x64 : Shape := ⟨2, ![100000, 64]⟩

abbrev nBuf : Space → Nat
  | .hbm => 95
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S100000x64, .f32⟩
  | .hbm, ⟨94, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128x128, .f32⟩
  | .local _ .vmem, ⟨8, _⟩ => ⟨S4000x128, .f32⟩
  | .local _ .vmem, ⟨9, _⟩ => ⟨S4000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S128x64_S128x64_S128x128_d1 : Shape.Concatenates [S128x64, S128x64] S128x128 1
  concatenates_S64_S64_S128_d0 : Shape.Concatenates [S64, S64] S128 0
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S100000x64_0_0 : S100000x128.Slices ![0, 0] S100000x64
  slices_S100000x128_S100000x64_0_64 : S100000x128.Slices ![0, 64] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x512_S512x128_S4000x128_1_0_0_1_n_n_wf : DotDims.WF S4000x512 S512x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with every buffer's final contents named.

  The program is nine segments: three stretches of host operations, the first matrix-product region, three more
  stretches, the second matrix-product region, and a last stretch.  The contents of the TensorCore's buffers at each
  segment boundary are a fold from the launch memory: a stretch applies its operations to the contents before it, a
  region replaces its output array by what its write-backs leave and keeps every other buffer.  Every weakly fair
  execution terminates, and in every final state each unscoped buffer holds the last boundary's contents.  In
  particular the two results are the last boundary's contents at their buffers.
-/
import proofs.«159020_j3934190043984_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each unscoped
    buffer of each core holds the contents the fold through the nine segments ends at. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run read at the two results and the eight arguments: the results hold the last boundary's contents at
    their buffers, and no segment writes an argument. -/
theorem run : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v67 (by decide)),
     h c _ (mem_uc main_v68 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩)
    (run_all m ρ)

end Cert.KernelIdeal.Run

end
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.LibSegSum.lean ====
/-
  Three host operations on rows and flat index arrays, read at an entry; general over the extents.

  * A `stablehlo.scatter` with an adding body of float rows into an `[N, D]` operand at a column `[E, 1]` of
    destination indices (update_window_dims `[1]`, inserted_window_dims `[0]`, scatter_dims_to_operand_dims `[0]`,
    index_vector_dim `1`; what a segment sum lowers to), on the extended reals: entry `(n, k)` is the operand's entry
    plus the sum over the updates `e` whose index word read signed is `n` of the update's entry `(e, k)`.
  * A `stablehlo.gather` of single elements of a flat array `[M]` at a column `[E, 1]` of start indices
    (collapsed_slice_dims `[0]`, start_index_map `[0]`, index_vector_dim `1`, slice_sizes `[1]`; what `a[idx]` lowers
    to for flat arrays): entry `e` is the element the index word names, read signed and clamped into `[0, M − 1]`.
  * The second result of a stable sort of a key array carrying the iota of positions (an argsort): a bijection of the
    positions, as words.
-/
import Idealize.ShloMosaic.Lib.ValueIdx
import Idealize.ShloMosaic.Lib.SortFacts
import Idealize.ShloMosaic.PureOps.Ideal.Laws
import proofs.«159020_j3934190043984_1_alg».proof.Proof.LibGatherFlatRows

noncomputable section

namespace Cert.LibSegSum

open Idealize.ShloMosaic Idealize.ShloMosaic.ValueIdx

/-- The scatter's dimension numbers for an operand `[N, D]`, indices `[E, 1]` and updates `[E, D]`. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An axis of a rank-2 shape is its first or its second. -/
private theorem axis_cases (a : Fin 2) : a = 0 ∨ a = 1 := by fin_cases a <;> simp

/-- A 32-bit word of a number below `2 ^ 31` reads that number, signed. -/
private theorem toInt_ofNat_lt {v : Nat} (hv : v < 2 ^ 31) : (BitVec.ofNat 32 v).toInt = (v : Int) := by
  rw [BitVec.toInt_eq_toNat_cond, BitVec.toNat_ofNat]
  have hm : v % 2 ^ 32 = v := Nat.mod_eq_of_lt (by omega)
  rw [hm]
  split <;> omega

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (k' : Fin D)

/-- The window of update `(e, k')` starts, on the row axis, at the index word `idx[e, 0]` read signed … -/
private theorem start_row :
    (rowsDims N D E wf).start (ix2 e k') idx (0 : Fin 2) = (idx (ix2 e (0 : Fin 1))).toInt := by
  unfold ScatterDims.start
  rw [dif_pos (show (0 : Fin 2) ∈ (rowsDims N D E wf).scatterDimsToOperandDims from List.mem_singleton.mpr rfl)]
  have hsi : (rowsDims N D E wf).siIdx (ix2 e k') ⟨List.idxOf (0 : Fin 2) (rowsDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, on the column axis, at `0`. -/
private theorem start_col : (rowsDims N D E wf).start (ix2 e k') idx (1 : Fin 2) = 0 := by
  unfold ScatterDims.start
  rw [dif_neg (show (1 : Fin 2) ∉ (rowsDims N D E wf).scatterDimsToOperandDims from
    fun h => absurd (congrArg Fin.val (List.mem_singleton.mp h)) Nat.one_ne_zero)]

/-- Its window coordinate is `0` on the row axis, an inserted one … -/
private theorem window_row : (rowsDims N D E wf).window (ix2 e k') (0 : Fin 2) = 0 := by
  unfold ScatterDims.window
  rw [dif_neg (show (0 : Fin 2) ∉ (rowsDims N D E wf).sKept from by
    simp [ScatterDims.sKept, Shape.kept])]

/-- … and the update's column on the column axis. -/
private theorem window_col : (rowsDims N D E wf).window (ix2 e k') (1 : Fin 2) = k'.val := by
  have hk : (1 : Fin 2) ∈ (rowsDims N D E wf).sKept := by
    simp [ScatterDims.sKept, Shape.kept]
  unfold ScatterDims.window
  rw [dif_pos hk]
  rfl

/-- Update `(e, k')` lands at `(n, k)` exactly when its index word read signed is `n` and `k' = k`. -/
private theorem resultIdx_rows (n : Fin N) (k : Fin D) :
    (rowsDims N D E wf).resultIdx? (ix2 e k') idx = some (ix2 n k)
      ↔ (idx (ix2 e (0 : Fin 1))).toInt = (n.val : Int) ∧ k' = k := by
  have hs0 := start_row wf idx e k'
  have hs1 := start_col wf idx e k'
  have hw0 := window_row wf e k'
  have hw1 := window_col wf e k'
  unfold ScatterDims.resultIdx?
  split
  · rename_i h
    rw [Option.some.injEq]
    constructor
    · intro hEq
      have h0 := congrArg Fin.val (congrFun hEq (0 : Fin 2))
      have h1 := congrArg Fin.val (congrFun hEq (1 : Fin 2))
      have hb := (h (0 : Fin 2)).1
      simp only [hs0, hw0] at h0 hb
      simp only [hs1, hw1] at h1
      refine ⟨?_, Fin.ext ?_⟩
      · have : ((idx (ix2 e (0 : Fin 1))).toInt + ((0 : Nat) : Int)).toNat = n.val := h0
        omega
      · have : ((0 : Int) + (k'.val : Int)).toNat = k.val := h1
        omega
    · rintro ⟨hn, rfl⟩
      funext a
      refine Fin.ext ?_
      rcases axis_cases a with rfl | rfl
      · show ((rowsDims N D E wf).start (ix2 e k') idx (0 : Fin 2) + ((rowsDims N D E wf).window (ix2 e k') (0 : Fin 2) : Int)).toNat = n.val
        rw [hs0, hw0, hn]; omega
      · show ((rowsDims N D E wf).start (ix2 e k') idx (1 : Fin 2) + ((rowsDims N D E wf).window (ix2 e k') (1 : Fin 2) : Int)).toNat = k'.val
        rw [hs1, hw1]; omega
  · rename_i h
    constructor
    · intro hEq; exact absurd hEq (by simp)
    · rintro ⟨hn, rfl⟩
      refine absurd (fun a => ?_) h
      rcases axis_cases a with rfl | rfl
      · rw [hs0, hw0, hn]
        have := n.isLt
        show (0 : Int) ≤ (n.val : Int) + ((0 : Nat) : Int) ∧ (n.val : Int) + ((0 : Nat) : Int) < ((N : Nat) : Int)
        omega
      · rw [hs1, hw1]
        have := k'.isLt
        show (0 : Int) ≤ (0 : Int) + (k'.val : Int) ∧ (0 : Int) + (k'.val : Int) < ((D : Nat) : Int)
        omega

end Rows

/-- THE ADDING SCATTER OF ROWS AT `(n, k)`, on the extended reals. -/
theorem scatterAdd_rows_apply {N D E w : Nat}
    (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (n : Fin N) (k : Fin D) :
    Host.scatterAdd (rowsDims N D E wf) x idx upd (ix2 n k)
      = x (ix2 n k) + ∑ e : Fin E, if (idx (ix2 e (0 : Fin 1))).toInt = (n.val : Int) then upd (ix2 e k) else 0 := by
  show x (ix2 n k) + ∑ j ∈ Finset.univ.filter (fun j => (rowsDims N D E wf).resultIdx? j idx = some (ix2 n k)), upd j = _
  congr 1
  rw [Finset.sum_filter, sum_idx2]
  refine Finset.sum_congr rfl fun e _ => ?_
  by_cases hn : (idx (ix2 e (0 : Fin 1))).toInt = (n.val : Int)
  · rw [if_pos hn, Finset.sum_eq_single k]
    · exact if_pos ((resultIdx_rows wf idx e k n k).mpr ⟨hn, rfl⟩)
    · intro k' _ hk
      exact if_neg fun h => hk ((resultIdx_rows wf idx e k' n k).mp h).2
    · intro h; exact absurd (Finset.mem_univ k) h
  · rw [if_neg hn]
    exact Finset.sum_eq_zero fun k' _ => if_neg fun h => hn ((resultIdx_rows wf idx e k' n k).mp h).1

/-- The gather's dimension numbers for a flat array `[M]`, indices `[E, 1]` and result `[E]`. -/
abbrev flatDims (M E : Nat) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the element the start index `idx[e, 0]` names. -/
theorem gather_flat_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatDims M E wf) x idx (ix1 e)
      = x (ix1 (Cert.LibGatherFlatRows.rowOf M hM (idx (ix2 e (0 : Fin 1))))) := by
  unfold Host.gather
  congr 1
  funext a
  obtain rfl : a = 0 := Subsingleton.elim _ _
  refine Fin.ext ?_
  show (flatDims M E wf).start (ix1 e) idx 0 + (flatDims M E wf).batchCoord (ix1 e) 0
      + (flatDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims M E wf).startIndexMap from List.mem_singleton.mpr rfl)]
  have hsi : (flatDims M E wf).siIdx (ix1 e) ⟨List.idxOf (0 : Fin 1) (flatDims M E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On a rank-1 shape the second result of a two-operand stable sort along the one axis reads its operand through
    ONE self-map of the positions: the stable sorting permutation of the comparator on the pairs of words. -/
private theorem sort2_snd_rank1 {α β : Type} {E : Nat} (cmp : α × β → α × β → BitVec 1)
    (x : (⟨1, ![E]⟩ : Shape).Idx → α) (y : (⟨1, ![E]⟩ : Shape).Idx → β) (j : (⟨1, ![E]⟩ : Shape).Idx) :
    (Host.sort2 ⟨1, ![E]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- AN ARGSORT IS A BIJECTION OF THE POSITIONS: the second result of the stable sort, along its one axis, of any key
    array `x` paired with the iota of positions is `e ↦ the word of σ e` for a bijection `σ` of `Fin E`. -/
theorem sort2_iota_bijective {α : Type} {E : Nat} (cmp : α × BitVec 32 → α × BitVec 32 → BitVec 1)
    (x : (⟨1, ![E]⟩ : Shape).Idx → α) :
    ∃ σ : Fin E → Fin E, Function.Bijective σ ∧
      ∀ e : Fin E, (Host.sort2 ⟨1, ![E]⟩ 0 cmp x (iotaInDim ⟨1, ![E]⟩ 32 (0 : Fin 1))).2 (ix1 e)
        = BitVec.ofNat 32 (σ e).val := by
  refine ⟨sortedFrom (fun k k' => cmp (x (Shape.Idx.ofFin k), iotaInDim ⟨1, ![E]⟩ 32 (0 : Fin 1) (Shape.Idx.ofFin k))
      (x (Shape.Idx.ofFin k'), iotaInDim ⟨1, ![E]⟩ 32 (0 : Fin 1) (Shape.Idx.ofFin k')) == 1#1),
    ⟨sortedFrom_injective _, sortedFrom_surjective _⟩, fun e => ?_⟩
  rw [sort2_snd_rank1]
  rfl

/-- The word of a position below `2 ^ 31` is not negative read signed … -/
theorem not_slt_zero_ofNat {v : Nat} (hv : v < 2 ^ 31) : IntOp.cmpi .slt (BitVec.ofNat 32 v) 0#32 = 0#1 := by
  have h : (BitVec.ofNat 32 v).slt 0#32 = false := by
    rw [Bool.eq_false_iff, ne_eq, BitVec.slt_iff_toInt_lt, toInt_ofNat_lt hv]
    simp
  show BitVec.ofBool ((BitVec.ofNat 32 v).slt 0#32) = 0#1
  rw [h]
  rfl

/-- … and names that position: read signed and clamped into `[0, M − 1]` it is `v` when `v < M`. -/
theorem rowOf_ofNat {M v : Nat} (hM : 0 < M) (hv : v < M) (hM31 : M ≤ 2 ^ 31) :
    Cert.LibGatherFlatRows.rowOf M hM (BitVec.ofNat 32 v) = ⟨v, hv⟩ := by
  refine Fin.ext ?_
  show min (BitVec.ofNat 32 v).toInt.toNat (M - 1) = v
  rw [toInt_ofNat_lt (lt_of_lt_of_le hv hM31), Int.toNat_natCast]
  omega

end Cert.LibSegSum

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibGcnAgg.lean ====
/-
  One normalized neighbourhood aggregation of a graph convolution, read at an entry; general over the extents.

  A table `P` of `N` rows and `C` columns is gathered by rows at a column of `E` source indices, each gathered row is
  scaled by its edge's weight, the scaled rows are summed into `N` buckets chosen by a column of `E` destination indices
  (a scatter with an adding body into a start matrix), and a bias vector is added to every row.  On the extended reals
  entry `(n, c)` of the result is the start matrix's entry, plus the sum over the edges `e` whose destination word read
  signed is `n` of `P (row named by e's source word, c) · weight e`, plus `bias c`.  So entry `(n, c)` reads column
  `c` of the table and of the bias, and nothing of the other columns: the aggregation acts on each feature column by itself.
-/
import Idealize.ShloMosaic.Lib.Pipeline.Value
import Idealize.ShloMosaic.Lib.ValueIdx
import Idealize.ShloMosaic.PureOps.Ideal.Laws
import proofs.«159020_j3934190043984_1_alg».proof.Proof.LibGatherFlatRows
import proofs.«159020_j3934190043984_1_alg».proof.Proof.LibSegSum
import proofs.«159020_j3934190043984_1_alg».proof.Proof.LibHostRows

noncomputable section

open scoped BigOperators

namespace Cert.LibGcnAgg

open Idealize.ShloMosaic Idealize.ShloMosaic.ValueIdx

variable {N C E w : ℕ}

/-- Entry `(n, c)` of the aggregation: the start entry, plus the weighted rows of the edges into `n` at column `c`, plus
    the bias at `c`. -/
def aggAt (hN : 0 < N) (x0 P : (⟨2, ![N, C]⟩ : Shape).Idx → EReal) (idxS idxD : IVec ⟨2, ![E, 1]⟩ w)
    (nrm : (⟨1, ![E]⟩ : Shape).Idx → EReal) (bias : (⟨1, ![C]⟩ : Shape).Idx → EReal) (n : Fin N) (c : Fin C) : EReal :=
  (x0 (ix2 n c) + ∑ e : Fin E, if (idxD (ix2 e (0 : Fin 1))).toInt = (n.val : Int)
      then P (ix2 (Cert.LibGatherFlatRows.rowOf N hN (idxS (ix2 e (0 : Fin 1)))) c) * nrm (ix1 e) else 0) + bias (ix1 c)

/-- The host's spelling of the aggregation — gather of rows, product with the weights broadcast as a column and then
    along the columns, adding scatter into `x0`, sum with the bias broadcast as a row and then down the rows — read at
    `(n, c)`. -/
theorem host_agg_at (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (x0 P : FVec Ideal ⟨2, ![N, C]⟩ .f32) (idxS idxD : IVec ⟨2, ![E, 1]⟩ w)
    (nrm : FVec Ideal ⟨1, ![E]⟩ .f32) (bias : FVec Ideal ⟨1, ![C]⟩ .f32)
    (d1 : Fin (⟨1, ![E]⟩ : Shape).rank → Fin (⟨2, ![E, 1]⟩ : Shape).rank) (hd1 : d1 0 = 0)
    (h1 : (⟨1, ![E]⟩ : Shape).BroadcastsInDim ⟨2, ![E, 1]⟩ d1)
    (d2 : Fin (⟨2, ![E, 1]⟩ : Shape).rank → Fin (⟨2, ![E, C]⟩ : Shape).rank) (hd20 : d2 0 = 0) (hd21 : d2 1 = 1)
    (h2 : (⟨2, ![E, 1]⟩ : Shape).BroadcastsInDim ⟨2, ![E, C]⟩ d2)
    (d3 : Fin (⟨1, ![C]⟩ : Shape).rank → Fin (⟨2, ![1, C]⟩ : Shape).rank) (hd3 : d3 0 = 1)
    (h3 : (⟨1, ![C]⟩ : Shape).BroadcastsInDim ⟨2, ![1, C]⟩ d3)
    (d4 : Fin (⟨2, ![1, C]⟩ : Shape).rank → Fin (⟨2, ![N, C]⟩ : Shape).rank) (hd40 : d4 0 = 0) (hd41 : d4 1 = 1)
    (h4 : (⟨2, ![1, C]⟩ : Shape).BroadcastsInDim ⟨2, ![N, C]⟩ d4)
    (n : Fin N) (c : Fin C) :
    addf (Host.scatterAdd (Cert.LibSegSum.rowsDims N C E wfS) x0 idxD
        (mulf (Host.gather (Cert.LibGatherFlatRows.rowDims N C E wfG) P idxS)
          (broadcastInDim ⟨2, ![E, C]⟩ d2 h2 (broadcastInDim ⟨2, ![E, 1]⟩ d1 h1 nrm))))
      (broadcastInDim ⟨2, ![N, C]⟩ d4 h4 (broadcastInDim ⟨2, ![1, C]⟩ d3 h3 bias)) (ix2 n c)
      = aggAt hN x0 P idxS idxD nrm bias n c := by
  rw [addf_apply, Cert.LibSegSum.scatterAdd_rows_apply, Cert.LibHostRows.bcast_1b_ab_at d4 hd40 hd41 h4,
    Cert.LibHostRows.bcast_b_1b_at d3 hd3 h3]
  unfold aggAt
  refine congrArg (· + bias (ix1 c)) (congrArg (x0 (ix2 n c) + ·) (Finset.sum_congr rfl fun e _ => ?_))
  rw [mulf_apply, Cert.LibGatherFlatRows.gather_rows_apply hN wfG, Cert.LibHostRows.bcast_a1_ab_at d2 hd20 hd21 h2,
    Cert.LibHostRows.bcast_a_a1_at d1 hd1 h1]

/-- Entry `(n, c)` of one aggregation and entry `(n, c')` of another with the same index columns and weights agree
    when the start matrices agree there, the tables agree on those two columns row by row, and the biases agree at them. -/
theorem aggAt_congr {C' : ℕ} (hN : 0 < N) (x0 P : (⟨2, ![N, C]⟩ : Shape).Idx → EReal)
    (x0' P' : (⟨2, ![N, C']⟩ : Shape).Idx → EReal) (idxS idxD : IVec ⟨2, ![E, 1]⟩ w)
    (nrm : (⟨1, ![E]⟩ : Shape).Idx → EReal) (bias : (⟨1, ![C]⟩ : Shape).Idx → EReal)
    (bias' : (⟨1, ![C']⟩ : Shape).Idx → EReal) (n : Fin N) (c : Fin C) (c' : Fin C')
    (hx : x0 (ix2 n c) = x0' (ix2 n c')) (hP : ∀ r : Fin N, P (ix2 r c) = P' (ix2 r c'))
    (hb : bias (ix1 c) = bias' (ix1 c')) :
    aggAt hN x0 P idxS idxD nrm bias n c = aggAt hN x0' P' idxS idxD nrm bias' n c' := by
  unfold aggAt
  rw [hx, hb]
  refine congrArg (· + bias' (ix1 c')) (congrArg (x0' (ix2 n c') + ·) (Finset.sum_congr rfl fun e _ => ?_))
  rw [hP]

end Cert.LibGcnAgg

end
-- ==== Proof.FusedHeads.lean ====
/-
  The law that joins the two programs' output layers.

  The kernel computes both output heads at once: it multiplies the hidden layer by the two head weight matrices set side
  by side (128 columns), aggregates the 128-column table over the graph, adds the two head biases set end to end, and
  cuts the result into its left and right 64 columns.  The reference aggregates each head's 64-column table by itself.
  An entry of an aggregation reads one column of its table and one entry of its bias, so column `g` of the left cut is
  the aggregation of column `g` of the joined table with bias entry `g`, and column `g` of the right cut that of
  column `64 + g` with bias entry `64 + g`.  No law of the extended reals' arithmetic is used beyond this reading.
-/
import proofs.«159020_j3934190043984_1_alg».proof.Proof.Gen.KernelIdeal
import proofs.«159020_j3934190043984_1_alg».proof.Proof.Gen.ReferenceIdeal
import proofs.«159020_j3934190043984_1_alg».proof.Proof.LibGcnAgg
import Idealize.ShloMosaic.Lib.Pipeline.Value

noncomputable section

namespace Cert.Heads

open Idealize.ShloMosaic Idealize.ShloMosaic.ValueIdx Cert.LibGcnAgg
open Cert.KernelIdeal Cert.KernelIdeal.Facts₀

/-- One aggregation of a 128-column table in the kernel's host spelling. -/
def aggK (X : FVec Ideal S100000x128 .f32) (idxS idxD : IVec S1700000x1 32) (nr : FVec Ideal S1700000 .f32)
    (b : FVec Ideal S128 .f32) : FVec Ideal S100000x128 .f32 :=
  addf (Host.scatterAdd scatter_S100000x128_S1700000x1_S1700000x128_1_0_0_1
      (broadcastInDim S100000x128 ![] bcast_S_S100000x128 (constant (F := Ideal) S_ .f32 0x00000000#32)) idxD
      (mulf (Host.gather gather_S100000x128_S1700000x1_S1700000x128_1_0_n_n_0_1_1128 X idxS)
        (broadcastInDim S1700000x128 ![0, 1] bcast_S1700000x1_S1700000x128_0_1
          (broadcastInDim S1700000x1 ![0] bcast_S1700000_S1700000x1_0 nr))))
    (broadcastInDim S100000x128 ![0, 1] bcast_S1x128_S100000x128_0_1 (broadcastInDim S1x128 ![1] bcast_S128_S1x128_1 b))

/-- One aggregation of a 64-column table in the reference's spelling. -/
def aggR (Y : FVec Ideal Cert.ReferenceIdeal.S100000x64 .f32) (idxS idxD : IVec Cert.ReferenceIdeal.S1700000x1 32)
    (nr : FVec Ideal Cert.ReferenceIdeal.S1700000 .f32) (b : FVec Ideal Cert.ReferenceIdeal.S64 .f32) : FVec Ideal Cert.ReferenceIdeal.S100000x64 .f32 :=
  addf (Host.scatterAdd Cert.ReferenceIdeal.scatter_S100000x64_S1700000x1_S1700000x64_1_0_0_1
      (broadcastInDim Cert.ReferenceIdeal.S100000x64 ![] Cert.ReferenceIdeal.Facts₀.bcast_S_S100000x64 (constant (F := Ideal) Cert.ReferenceIdeal.S_ .f32 0x00000000#32)) idxD
      (mulf (Host.gather Cert.ReferenceIdeal.gather_S100000x64_S1700000x1_S1700000x64_1_0_n_n_0_1_164 Y idxS)
        (broadcastInDim Cert.ReferenceIdeal.S1700000x64 ![0, 1] Cert.ReferenceIdeal.Facts₀.bcast_S1700000x1_S1700000x64_0_1
          (broadcastInDim Cert.ReferenceIdeal.S1700000x1 ![0] Cert.ReferenceIdeal.Facts₀.bcast_S1700000_S1700000x1_0 nr))))
    (broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b))

theorem hN : 0 < 100000 := by decide

/-- The kernel's aggregation at an entry. -/
theorem aggK_at (X : FVec Ideal S100000x128 .f32) (idxS idxD : IVec S1700000x1 32) (nr : FVec Ideal S1700000 .f32)
    (b : FVec Ideal S128 .f32) (n : Fin 100000) (g : Fin 128) :
    aggK X idxS idxD nr b (ix2 n g)
      = aggAt hN (broadcastInDim S100000x128 ![] bcast_S_S100000x128 (constant (F := Ideal) S_ .f32 0x00000000#32)) X idxS idxD nr b n g :=
  host_agg_at (N := 100000) (C := 128) (E := 1700000) hN scatter_S100000x128_S1700000x1_S1700000x128_1_0_0_1_wf
    gather_S100000x128_S1700000x1_S1700000x128_1_0_n_n_0_1_1128_wf _ X idxS idxD nr b
    ![0] rfl bcast_S1700000_S1700000x1_0 ![0, 1] rfl rfl bcast_S1700000x1_S1700000x128_0_1
    ![1] rfl bcast_S128_S1x128_1 ![0, 1] rfl rfl bcast_S1x128_S100000x128_0_1 n g

/-- The reference's aggregation at an entry. -/
theorem aggR_at (Y : FVec Ideal Cert.ReferenceIdeal.S100000x64 .f32) (idxS idxD : IVec Cert.ReferenceIdeal.S1700000x1 32)
    (nr : FVec Ideal Cert.ReferenceIdeal.S1700000 .f32) (b : FVec Ideal Cert.ReferenceIdeal.S64 .f32) (n : Fin 100000) (g : Fin 64) :
    aggR Y idxS idxD nr b (ix2 n g)
      = aggAt hN (broadcastInDim Cert.ReferenceIdeal.S100000x64 ![] Cert.ReferenceIdeal.Facts₀.bcast_S_S100000x64 (constant (F := Ideal) Cert.ReferenceIdeal.S_ .f32 0x00000000#32)) Y idxS idxD nr b n g :=
  host_agg_at (N := 100000) (C := 64) (E := 1700000) hN Cert.ReferenceIdeal.Facts₀.scatter_S100000x64_S1700000x1_S1700000x64_1_0_0_1_wf
    Cert.ReferenceIdeal.Facts₀.gather_S100000x64_S1700000x1_S1700000x64_1_0_n_n_0_1_164_wf _ Y idxS idxD nr b
    ![0] rfl Cert.ReferenceIdeal.Facts₀.bcast_S1700000_S1700000x1_0 ![0, 1] rfl rfl Cert.ReferenceIdeal.Facts₀.bcast_S1700000x1_S1700000x64_0_1
    ![1] rfl Cert.ReferenceIdeal.Facts₀.bcast_S64_S1x64_1 ![0, 1] rfl rfl Cert.ReferenceIdeal.Facts₀.bcast_S1x64_S100000x64_0_1 n g

/-- THE LEFT HEAD: the left 64 columns of the kernel's aggregation are the reference's aggregation of a table and a
    bias that agree with the kernel's on those columns. -/
theorem head_left (X : FVec Ideal S100000x128 .f32) (Y : FVec Ideal Cert.ReferenceIdeal.S100000x64 .f32) (idxS idxD : IVec S1700000x1 32)
    (nr : FVec Ideal S1700000 .f32) (b2 : FVec Ideal S128 .f32) (b : FVec Ideal Cert.ReferenceIdeal.S64 .f32)
    (hXY : ∀ (r : Fin 100000) (g : Fin 64), X (ix2 r ⟨g.val, by omega⟩) = Y (ix2 r g))
    (hb : ∀ g : Fin 64, b2 (ix1 (⟨g.val, by omega⟩ : Fin 128)) = b (ix1 g)) :
    extractStridedSlice S100000x64 ![0, 0] (aggK X idxS idxD nr b2) slices_S100000x128_S100000x64_0_0
      = aggR Y idxS idxD nr b := by
  funext i
  obtain ⟨n, g, rfl⟩ : ∃ (n : Fin 100000) (g : Fin 64), i = ix2 n g := ⟨i 0, i 1, eq_ix2 i⟩
  rw [extractStridedSlice_apply ![0, 0] (aggK X idxS idxD nr b2) slices_S100000x128_S100000x64_0_0 (ix2 n g)
    (ix2 n (⟨g.val, by omega⟩ : Fin 128)) (fun a => by
      match a with
      | ⟨0, _⟩ => show n.val = 0 + n.val; omega
      | ⟨1, _⟩ => show g.val = 0 + g.val; omega)]
  rw [aggK_at, aggR_at]
  exact aggAt_congr hN _ X _ Y idxS idxD nr b2 b n _ g rfl (fun r => hXY r g) (hb g)

/-- THE RIGHT HEAD: the right 64 columns, against a table and a bias that agree with the kernel's there. -/
theorem head_right (X : FVec Ideal S100000x128 .f32) (Y : FVec Ideal Cert.ReferenceIdeal.S100000x64 .f32) (idxS idxD : IVec S1700000x1 32)
    (nr : FVec Ideal S1700000 .f32) (b2 : FVec Ideal S128 .f32) (b : FVec Ideal Cert.ReferenceIdeal.S64 .f32)
    (hXY : ∀ (r : Fin 100000) (g : Fin 64), X (ix2 r ⟨64 + g.val, by omega⟩) = Y (ix2 r g))
    (hb : ∀ g : Fin 64, b2 (ix1 (⟨64 + g.val, by omega⟩ : Fin 128)) = b (ix1 g)) :
    extractStridedSlice S100000x64 ![0, 64] (aggK X idxS idxD nr b2) slices_S100000x128_S100000x64_0_64
      = aggR Y idxS idxD nr b := by
  funext i
  obtain ⟨n, g, rfl⟩ : ∃ (n : Fin 100000) (g : Fin 64), i = ix2 n g := ⟨i 0, i 1, eq_ix2 i⟩
  rw [extractStridedSlice_apply ![0, 64] (aggK X idxS idxD nr b2) slices_S100000x128_S100000x64_0_64 (ix2 n g)
    (ix2 n (⟨64 + g.val, by omega⟩ : Fin 128)) (fun a => by
      match a with
      | ⟨0, _⟩ => show n.val = 0 + n.val; omega
      | ⟨1, _⟩ => show 64 + g.val = 64 + g.val; rfl)]
  rw [aggK_at, aggR_at]
  exact aggAt_congr hN _ X _ Y idxS idxD nr b2 b n _ g rfl (fun r => hXY r g) (hb g)

end Cert.Heads

end
-- ==== Proof.KernelStages.lean ====
/-
  The idealized kernel's host stretches, one at a time, from any contents of the buffers before them.

  Each stretch of host operations between the regions writes a few buffers the later text reads; what it writes there is
  a fixed function of a few buffers it finds, and every other buffer keeps its contents.  The functions are: the
  source and destination index arrays of the graph with self-loops (from the edge list); each node's weight, the inverse
  square root of its degree where the degree is positive and zero elsewhere; each edge's weight, the product of its two
  end nodes' weights; one aggregation of a 128-column table, plus a bias; its rectification; the two head weight
  matrices set side by side and the two head biases end to end; and the left and right halves of an aggregation.
-/
import proofs.«159020_j3934190043984_1_alg».proof.Proof.Gen.KernelIdeal.Frame
import proofs.«159020_j3934190043984_1_alg».proof.Proof.FusedHeads
import proofs.«159020_j3934190043984_1_alg».proof.Proof.RefRead
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo Cert.Heads

/-! ## The functions -/

/-- The column of row numbers an index array names for a gather: a negative index wraps round by the number of nodes. -/
def srcCol (s : IVec S1700000 32) : IVec S1700000x1 32 :=
  broadcastInDim S1700000x1 ![0] Facts₀.bcast_S1700000_S1700000x1_0
    (select (cmpi .slt s (broadcastInDim S1700000 ![] Facts₀.bcast_S_S1700000 (constantI S_ 32 0#32)))
      (addi s (broadcastInDim S1700000 ![] Facts₀.bcast_S_S1700000 (constantI S_ 32 100000#32))) s)

/-- An index array as a column. -/
def dstCol (d : IVec S1700000 32) : IVec S1700000x1 32 :=
  broadcastInDim S1700000x1 ![0] Facts₀.bcast_S1700000_S1700000x1_0 d

/-- Each edge's weight from the nodes' weights: the product of the weights of its two ends. -/
def edgeWeight (w : FVec Ideal S100000 .f32) (s d : IVec S1700000 32) : FVec Ideal S1700000 .f32 :=
  mulf (Host.gather gather_S100000_S1700000x1_S1700000_n_0_n_n_0_1_1 w (srcCol s))
    (Host.gather gather_S100000_S1700000x1_S1700000_n_0_n_n_0_1_1 w (srcCol d))

/-- The rectification of a 128-column matrix. -/
def relu (x : FVec Ideal S100000x128 .f32) : FVec Ideal S100000x128 .f32 :=
  maximumf x (broadcastInDim S100000x128 ![] Facts₀.bcast_S_S100000x128 (constant (F := Ideal) S_ .f32 0x00000000#32))

variable (Vb : Valuation τ sig (Elt Ideal))

/-! ## The first stretch: the index arrays, and each node's degree compared with zero and its inverse square root -/

set_option maxHeartbeats 8000000 in
/-- The source index array: the edge list's first row, then one self-loop per node. -/
theorem first_src : after hostOps0 Vb (Proc.devRef .tc main_v3)
    = Cert.ReferenceIdeal.ReadP.val_main_v3 (F := Ideal) (Vb (Proc.devRef .tc main_arg1)) := by
  dsimp only [hostOps0]
  after_results_simp <;> rfl

set_option maxHeartbeats 8000000 in
/-- The destination index array: the edge list's second row, then one self-loop per node. -/
theorem first_dst : after hostOps0 Vb (Proc.devRef .tc main_v6)
    = Cert.ReferenceIdeal.ReadP.val_main_v6 (F := Ideal) (Vb (Proc.devRef .tc main_arg1)) := by
  dsimp only [hostOps0]
  after_results_simp <;> rfl

set_option maxHeartbeats 8000000 in
/-- Where a node's degree is positive. -/
theorem first_pos : after hostOps0 Vb (Proc.devRef .tc main_v12)
    = Cert.ReferenceIdeal.ReadP.val_main_v12 (F := Ideal) (Vb (Proc.devRef .tc main_arg1)) := by
  dsimp only [hostOps0]
  after_results_simp <;> rfl

set_option maxHeartbeats 8000000 in
/-- The inverse square roots of the degrees. -/
theorem first_rsq : after hostOps0 Vb (Proc.devRef .tc main_v13)
    = Cert.ReferenceIdeal.ReadP.val_main_v13 (F := Ideal) (Vb (Proc.devRef .tc main_arg1)) := by
  dsimp only [hostOps0]
  after_results_simp <;> rfl

set_option maxHeartbeats 8000000 in
/-- The zero that stands for the weight of a node of degree zero. -/
theorem first_zero : after hostOps0 Vb (Proc.devRef .tc main_cst_2)
    = Cert.ReferenceIdeal.ReadP.val_main_cst_2 (F := Ideal) := by
  dsimp only [hostOps0]
  after_results_simp <;> rfl

set_option maxHeartbeats 8000000 in
/-- The first stretch writes no argument. -/
theorem first_keep (b : Ref sig .tc) (hb : b = main_arg0 ∨ b = main_arg2 ∨ b = main_arg3 ∨ b = main_arg4 ∨ b = main_arg5 ∨ b = main_arg6 ∨ b = main_arg7) :
    after hostOps0 Vb (Proc.devRef .tc b) = Vb (Proc.devRef .tc b) := by
  rcases hb with rfl | rfl | rfl | rfl | rfl | rfl | rfl <;>
  · dsimp only [hostOps0]
    after_results_simp <;> rfl

/-! ## The second stretch: each node's weight -/

set_option maxHeartbeats 8000000 in
/-- A node's weight: the inverse square root of its degree where the degree is positive, zero elsewhere. -/
theorem where_out : after hostOps0_1 Vb (Proc.devRef .tc main_v14)
    = select (Vb (Proc.devRef .tc main_v12)) (Vb (Proc.devRef .tc main_v13)) (broadcastInDim S100000 ![] Facts₀.bcast_S_S100000 (Vb (Proc.devRef .tc main_cst_2))) := by
  dsimp only [hostOps0_1]
  after_results_simp <;> rfl

set_option maxHeartbeats 8000000 in
/-- It writes neither index array and no argument. -/
theorem where_keep (b : Ref sig .tc) (hb : b = main_v3 ∨ b = main_v6 ∨ b = main_arg0 ∨ b = main_arg2 ∨ b = main_arg3 ∨ b = main_arg4 ∨ b = main_arg5 ∨ b = main_arg6 ∨ b = main_arg7) :
    after hostOps0_1 Vb (Proc.devRef .tc b) = Vb (Proc.devRef .tc b) := by
  rcases hb with rfl | rfl | rfl | rfl | rfl | rfl | rfl | rfl | rfl <;>
  · dsimp only [hostOps0_1]
    after_results_simp <;> rfl

/-! ## The third stretch: each edge's weight -/

set_option maxHeartbeats 8000000 in
/-- An edge's weight is the product of its two ends' weights. -/
theorem weights : after hostOps0_2 Vb (Proc.devRef .tc main_v29)
    = edgeWeight (Vb (Proc.devRef .tc main_v14)) (Vb (Proc.devRef .tc main_v3)) (Vb (Proc.devRef .tc main_v6)) := by
  dsimp only [hostOps0_2]
  after_results_simp <;> rfl

set_option maxHeartbeats 8000000 in
/-- It writes neither index array and no argument. -/
theorem weights_keep (b : Ref sig .tc) (hb : b = main_v3 ∨ b = main_v6 ∨ b = main_arg0 ∨ b = main_arg2 ∨ b = main_arg3 ∨ b = main_arg4 ∨ b = main_arg5 ∨ b = main_arg6 ∨ b = main_arg7) :
    after hostOps0_2 Vb (Proc.devRef .tc b) = Vb (Proc.devRef .tc b) := by
  rcases hb with rfl | rfl | rfl | rfl | rfl | rfl | rfl | rfl | rfl <;>
  · dsimp only [hostOps0_2]
    after_results_simp <;> rfl

/-! ## After the first region: the first aggregation and its rectification -/

set_option maxHeartbeats 8000000 in
/-- The first region's product, aggregated over the graph, plus the first bias. -/
theorem agg1 : after hostOps1 Vb (Proc.devRef .tc main_v46)
    = aggK (Vb (Proc.devRef .tc main_v30)) (srcCol (Vb (Proc.devRef .tc main_v3))) (dstCol (Vb (Proc.devRef .tc main_v6))) (Vb (Proc.devRef .tc main_v29)) (Vb (Proc.devRef .tc main_arg3)) := by
  dsimp only [hostOps1]
  after_results_simp <;> rfl

set_option maxHeartbeats 8000000 in
/-- It writes neither index array, not the weights, and no argument. -/
theorem agg1_keep (b : Ref sig .tc) (hb : b = main_v3 ∨ b = main_v6 ∨ b = main_v29 ∨ b = main_arg4 ∨ b = main_arg5 ∨ b = main_arg6 ∨ b = main_arg7) :
    after hostOps1 Vb (Proc.devRef .tc b) = Vb (Proc.devRef .tc b) := by
  rcases hb with rfl | rfl | rfl | rfl | rfl | rfl | rfl <;>
  · dsimp only [hostOps1]
    after_results_simp <;> rfl

set_option maxHeartbeats 8000000 in
/-- The hidden layer: the aggregation, rectified. -/
theorem relu_out : after hostOps1_1 Vb (Proc.devRef .tc main_v47)
    = relu (Vb (Proc.devRef .tc main_v46)) := by
  dsimp only [hostOps1_1]
  after_results_simp <;> rfl

set_option maxHeartbeats 8000000 in
/-- It writes neither index array, not the weights, and no argument. -/
theorem relu_keep (b : Ref sig .tc) (hb : b = main_v3 ∨ b = main_v6 ∨ b = main_v29 ∨ b = main_arg4 ∨ b = main_arg5 ∨ b = main_arg6 ∨ b = main_arg7) :
    after hostOps1_1 Vb (Proc.devRef .tc b) = Vb (Proc.devRef .tc b) := by
  rcases hb with rfl | rfl | rfl | rfl | rfl | rfl | rfl <;>
  · dsimp only [hostOps1_1]
    after_results_simp <;> rfl

/-! ## Before the second region: the two heads' weights side by side, their biases end to end -/

set_option maxHeartbeats 8000000 in
/-- The two head weight matrices side by side. -/
theorem joinW : after hostOps1_2 Vb (Proc.devRef .tc main_v48)
    = concatenate S128x128 1 [⟨S128x64, Vb (Proc.devRef .tc main_arg4)⟩, ⟨S128x64, Vb (Proc.devRef .tc main_arg6)⟩] Facts₀.concatenates_S128x64_S128x64_S128x128_d1 := by
  dsimp only [hostOps1_2]
  after_results_simp <;> rfl

set_option maxHeartbeats 8000000 in
/-- The two head biases end to end. -/
theorem joinB : after hostOps1_2 Vb (Proc.devRef .tc main_v49)
    = concatenate S128 0 [⟨S64, Vb (Proc.devRef .tc main_arg5)⟩, ⟨S64, Vb (Proc.devRef .tc main_arg7)⟩] Facts₀.concatenates_S64_S64_S128_d0 := by
  dsimp only [hostOps1_2]
  after_results_simp <;> rfl

set_option maxHeartbeats 8000000 in
/-- It writes neither index array, not the weights, and not the hidden layer. -/
theorem join_keep (b : Ref sig .tc) (hb : b = main_v3 ∨ b = main_v6 ∨ b = main_v29 ∨ b = main_v47) :
    after hostOps1_2 Vb (Proc.devRef .tc b) = Vb (Proc.devRef .tc b) := by
  rcases hb with rfl | rfl | rfl | rfl <;>
  · dsimp only [hostOps1_2]
    after_results_simp <;> rfl

/-! ## After the second region: the second aggregation, cut into its two halves -/

set_option maxHeartbeats 8000000 in
/-- The first result: the left 64 columns of the second region's product aggregated, plus the joined biases. -/
theorem left_out : after hostOps2 Vb (Proc.devRef .tc main_v67)
    = extractStridedSlice S100000x64 ![0, 0] (aggK (Vb (Proc.devRef .tc main_v50)) (srcCol (Vb (Proc.devRef .tc main_v3))) (dstCol (Vb (Proc.devRef .tc main_v6))) (Vb (Proc.devRef .tc main_v29)) (Vb (Proc.devRef .tc main_v49))) Facts₀.slices_S100000x128_S100000x64_0_0 := by
  dsimp only [hostOps2]
  after_results_simp <;> rfl

set_option maxHeartbeats 8000000 in
/-- The second result: the right 64 columns. -/
theorem right_out : after hostOps2 Vb (Proc.devRef .tc main_v68)
    = extractStridedSlice S100000x64 ![0, 64] (aggK (Vb (Proc.devRef .tc main_v50)) (srcCol (Vb (Proc.devRef .tc main_v3))) (dstCol (Vb (Proc.devRef .tc main_v6))) (Vb (Proc.devRef .tc main_v29)) (Vb (Proc.devRef .tc main_v49))) Facts₀.slices_S100000x128_S100000x64_0_64 := by
  dsimp only [hostOps2]
  after_results_simp <;> rfl

end Cert.KernelIdeal.Stages

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«159020_j3934190043984_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibMatProd.lean ====
/-
  The product of two matrices as a whole matrix on the extended reals, for any extents: entry `(r, g)` of `A · B` is
  the sum over `k` of `A (r, k) · B (k, g)`.  A host program's plain `dot_general` is this matrix, and a kernel body's
  plain matrix product into the zero accumulator is this entry by entry.  Entry `(r, g)` reads row `r` of `A` and column
  `g` of `B` only.
-/
import proofs.«159020_j3934190043984_1_alg».proof.Proof.LibPlainMatmul
import proofs.«159020_j3934190043984_1_alg».proof.Proof.LibPlainDot

noncomputable section

open scoped BigOperators

namespace Cert.LibMatProd

open Idealize.ShloMosaic Idealize.ShloMosaic.ValueIdx

variable {R K N : ℕ}

/-- Entry `(r, g)` of the product. -/
def prodAt (A : (⟨2, ![R, K]⟩ : Shape).Idx → EReal) (B : (⟨2, ![K, N]⟩ : Shape).Idx → EReal) (r : Fin R) (g : Fin N) : EReal :=
  ∑ k : Fin K, A (ix2 r k) * B (ix2 k g)

/-- The product as a whole matrix. -/
def prod (A : (⟨2, ![R, K]⟩ : Shape).Idx → EReal) (B : (⟨2, ![K, N]⟩ : Shape).Idx → EReal) :
    (⟨2, ![R, N]⟩ : Shape).Idx → EReal :=
  fun i => prodAt A B (i 0) (i 1)

theorem prod_apply (A : (⟨2, ![R, K]⟩ : Shape).Idx → EReal) (B : (⟨2, ![K, N]⟩ : Shape).Idx → EReal) (r : Fin R) (g : Fin N) :
    prod A B (ix2 r g) = prodAt A B r g := rfl

/-- The host's plain product is the whole matrix. -/
theorem host_prod_eq (A : FVec Ideal ⟨2, ![R, K]⟩ .f32) (B : FVec Ideal ⟨2, ![K, N]⟩ .f32) :
    Host.dotGeneral (DotDims.plain R K N) none A B = prod A B := by
  funext i
  obtain ⟨r, g, rfl⟩ : ∃ (r : Fin R) (g : Fin N), i = ix2 r g := ⟨i 0, i 1, eq_ix2 i⟩
  exact Cert.LibPlainDot.dotGeneral_apply none A B r g

/-- A kernel body's plain product into the zero accumulator, at an entry. -/
theorem matmul_prodAt {φ₁ φ₂ : FTy} (prec : Option ContractPrecision) (A : FVec Ideal ⟨2, ![R, K]⟩ φ₁)
    (B : FVec Ideal ⟨2, ![K, N]⟩ φ₂) (r : Fin R) (g : Fin N) :
    FloatOps.matmul (DotDims.plain R K N) prec A B (constant ⟨2, ![R, N]⟩ .f32 0x00000000#32) (ix2 r g) = prodAt A B r g :=
  Cert.LibPlainMatmul.matmul_zero_apply prec A B r g

/-- An entry of the product reads one row of the left factor and one column of the right one. -/
theorem prodAt_congr {R' N' : ℕ} (A : (⟨2, ![R, K]⟩ : Shape).Idx → EReal) (B : (⟨2, ![K, N]⟩ : Shape).Idx → EReal)
    (A' : (⟨2, ![R', K]⟩ : Shape).Idx → EReal) (B' : (⟨2, ![K, N']⟩ : Shape).Idx → EReal) (r : Fin R) (g : Fin N)
    (r' : Fin R') (g' : Fin N') (hA : ∀ k : Fin K, A (ix2 r k) = A' (ix2 r' k)) (hB : ∀ k : Fin K, B (ix2 k g) = B' (ix2 k g')) :
    prodAt A B r g = prodAt A' B' r' g' := by
  unfold prodAt
  exact Finset.sum_congr rfl fun k _ => by rw [hA k, hB k]

end Cert.LibMatProd

end
-- ==== Proof.KernelRegions.lean ====
/-
  The two matrix-product regions of the idealized kernel, each read as one whole-array fact.

  A region walks 25 grid points.  At point `t` it loads row block `t` (4000 rows, every column) of its left operand and
  the whole right operand, multiplies them into a zero accumulator, and writes the result back as row block `t` of the
  output.  Entry `(r, g)` of a product reads row `r` of the left factor only, so row block `t` of the product of the
  whole arrays is the product of row block `t` with the right factor; the 25 blocks cover all 100000 rows.  Hence the
  output array, after the region, is the product of the two operand arrays as the region found them.
-/
import proofs.«159020_j3934190043984_1_alg».proof.Proof.Gen.KernelIdeal.Frame
import Idealize.ShloMosaic.Lib.Pipeline.Value
import Idealize.ShloMosaic.Lib.ValueIdx
import proofs.«159020_j3934190043984_1_alg».proof.Proof.LibMatProd

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx Cert.LibMatProd
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first matrix-product region -/

/-- The body's stored value at an entry of its block: the product of the two loaded blocks there (a change of float
    format is the identity on the extended reals). -/
theorem pay0_at (x0 : Vec Ideal S4000x512 .f32) (x1 : Vec Ideal S512x128 .f32) (p : Fin 4000) (q : Fin 128) :
    k0_pay1 (F := Ideal) x0 x1 (ix2 p q) = prodAt x0 x1 p q := by
  unfold k0_pay1
  exact matmul_prodAt none (truncf .bf16 x0 bitsLt_bf16_f32) (truncf .bf16 x1 bitsLt_bf16_f32) p q

theorem pay0_idx (x0 : Vec Ideal S4000x512 .f32) (x1 : Vec Ideal S512x128 .f32) (y : S4000x128.Idx) :
    k0_pay1 (F := Ideal) x0 x1 y = prodAt x0 x1 (y 0) (y 1) := by
  obtain ⟨p, q, rfl⟩ : ∃ (p : Fin 4000) (q : Fin 128), y = ix2 p q := ⟨y 0, y 1, eq_ix2 y⟩
  exact pay0_at x0 x1 p q

/-- The printed index maps, decided over the 25 grid points: the left operand's row block moves with the output's, the
    right operand is one whole block, and point `t` writes row block `t`. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is row block `t` of the product of the two operand arrays as the region finds them. -/
theorem flushed0_eq (c : Dev nD) (t : Fin cfg0.N) :
    (dat0 V c).flushed 2 t = ((cfg0.win 2).blk t).view.read (Elt Ideal)
      (prod (R := 100000) (K := 512) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x128) hz]
  obtain ⟨e0, e1, e2, e3, e4, e5⟩ := idx_facts0 t
  funext j
  show k0_pay1 (iblk0 V c 0 t) (iblk0 V c 1 t) j = prodAt (V c main_arg0) (V c main_arg2) ((((cfg0.win 2).blk t).view.emb j) 0) ((((cfg0.win 2).blk t).view.emb j) 1)
  refine (pay0_idx (iblk0 V c 0 t) (iblk0 V c 1 t) j).trans ?_
  refine prodAt_congr _ _ _ _ _ _ _ _ (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- The 25 row blocks of 4000 rows cover the 100000 rows: row `r` lies in block `r / 4000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  let t : Fin cfg0.N := ⟨(i 0).val / 4000, by show (i 0).val / 4000 < grid0.N; omega⟩
  obtain ⟨e0, e1, e2, e3, e4, e5⟩ := idx_facts0 t
  have e5' : win0_2.index t (0 : Fin 2) = (i 0).val / 4000 := e5
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The region's output array after its write-backs is the product of its two operand arrays. -/
theorem out0_eq (c : Dev nD) :
    (dat0 V c).arrAt 2 cfg0.N = prod (R := 100000) (K := 512) (N := 128) (V c main_arg0) (V c main_arg2) :=
  (dat0 V c).arrAt_eq_of_cover 2 _ (fun t _ => flushed0_eq V c t) cover0

/-! ## The second matrix-product region -/

/-- The body's stored value at an entry of its block: the product of the two loaded blocks there (a change of float
    format is the identity on the extended reals, and so is a cast of a shape to itself). -/
theorem pay1_at (x0 : Vec Ideal S4000x128 .f32) (x1 : Vec Ideal S128x128 .f32) (p : Fin 4000) (q : Fin 128) :
    k1_pay1 (F := Ideal) x0 x1 (ix2 p q) = prodAt x0 x1 p q := by
  unfold k1_pay1
  simp only [shapeCast_self]
  exact matmul_prodAt none (truncf .bf16 x0 bitsLt_bf16_f32) (truncf .bf16 x1 bitsLt_bf16_f32) p q

theorem pay1_idx (x0 : Vec Ideal S4000x128 .f32) (x1 : Vec Ideal S128x128 .f32) (y : S4000x128.Idx) :
    k1_pay1 (F := Ideal) x0 x1 y = prodAt x0 x1 (y 0) (y 1) := by
  obtain ⟨p, q, rfl⟩ : ∃ (p : Fin 4000) (q : Fin 128), y = ix2 p q := ⟨y 0, y 1, eq_ix2 y⟩
  exact pay1_at x0 x1 p q

/-- The printed index maps, decided over the 25 grid points: the left operand's row block moves with the output's, the
    right operand is one whole block, and point `t` writes row block `t`. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point `t` writes back is row block `t` of the product of the two operand arrays as the region finds them. -/
theorem flushed1_eq (c : Dev nD) (t : Fin cfg1.N) :
    (dat1 V c).flushed 2 t = ((cfg1.win 2).blk t).view.read (Elt Ideal)
      (prod (R := 100000) (K := 128) (N := 128) (V c main_v47) (V c main_v48)) := by
  show (cfg1.win 2).cut (grid1.coords t) ((dat1 V c).after 2 t) = _
  rw [after1_2]
  unfold out1_2
  rw [View.canon_unit_zero hz]
  simp only [View.ld_unit_zero (S := S4000x128) hz, View.ld_unit_zero (S := S128x128) hz]
  obtain ⟨e0, e1, e2, e3, e4, e5⟩ := idx_facts1 t
  funext j
  show k1_pay1 (iblk1 V c 0 t) (iblk1 V c 1 t) j = prodAt (V c main_v47) (V c main_v48) ((((cfg1.win 2).blk t).view.emb j) 0) ((((cfg1.win 2).blk t).view.emb j) 1)
  refine (pay1_idx (iblk1 V c 0 t) (iblk1 V c 1 t) j).trans ?_
  refine prodAt_congr _ _ _ _ _ _ _ _ (fun k => ?_) (fun k => ?_)
  · show V c main_v47 (((cfg1.win 0).blk t).view.emb (ix2 (j 0) k)) = V c main_v47 (ix2 ((((cfg1.win 2).blk t).view.emb j) 0) k)
    refine congrArg (V c main_v47) (funext fun a => Fin.ext ?_)
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 128 + 1 * k.val = k.val; omega
  · show V c main_v48 (((cfg1.win 1).blk t).view.emb (ix2 k (j 1))) = V c main_v48 (ix2 k ((((cfg1.win 2).blk t).view.emb j) 1))
    refine congrArg (V c main_v48) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v50).slice (win1_2.rect t)).set ↔ _
  rw [View.set_slice_whole, Rect.mem_set_unit]
  exact Iff.rfl

/-- The 25 row blocks of 4000 rows cover the 100000 rows: row `r` lies in block `r / 4000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 25 := N_1
  let t : Fin cfg1.N := ⟨(i 0).val / 4000, by show (i 0).val / 4000 < grid1.N; omega⟩
  obtain ⟨e0, e1, e2, e3, e4, e5⟩ := idx_facts1 t
  have e5' : win1_2.index t (0 : Fin 2) = (i 0).val / 4000 := e5
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- The region's output array after its write-backs is the product of its two operand arrays. -/
theorem out1_eq (c : Dev nD) :
    (dat1 V c).arrAt 2 cfg1.N = prod (R := 100000) (K := 128) (N := 128) (V c main_v47) (V c main_v48) :=
  (dat1 V c).arrAt_eq_of_cover 2 _ (fun t _ => flushed1_eq V c t) cover1

end Cert.KernelIdeal.Regions

end
-- ==== Proof.KernelBounds.lean ====
/-
  The idealized kernel's buffer contents at the boundaries between its segments, named.

  Walking the program's nine segments from the launch: the graph's index arrays and edge weights are functions of the
  edge list alone; the first region leaves the product of the features with the first weight matrix; the stretch after
  it leaves the hidden layer, the rectified aggregation of that product plus the first bias; the stretch before the
  second region sets the two heads' weights side by side and their biases end to end; the second region leaves the
  product of the hidden layer with the joined weights; and the last stretch leaves, as the two results, the left and
  right halves of that product's aggregation plus the joined biases.  No segment writes what a later one still reads.
-/
import proofs.«159020_j3934190043984_1_alg».proof.Proof.KernelStages
import proofs.«159020_j3934190043984_1_alg».proof.Proof.KernelRegions

set_option maxRecDepth 16384

noncomputable section

namespace Cert.KernelIdeal.Bounds

open Cert.KernelIdeal Cert.KernelIdeal.Gen Idealize.ShloMosaic Idealize.ShloMosaic.TcCoe Idealize.SL.Sem
open Idealize.ShloMosaic.StableHlo Cert.Heads Cert.LibMatProd Cert.KernelIdeal.Stages Cert.KernelIdeal.Regions

variable (m : (ℓ : Loc nD τ sig) → Buf (Elt Ideal) ℓ) (ρ : Dev nD → PrngReg) (c : Dev nD)

/-! ## At the first region's entry -/

theorem src3 : W3 m ρ c (Proc.devRef .tc main_v3) = (Cert.ReferenceIdeal.ReadP.val_main_v3 (F := Ideal) (m ((c : Thread nD τ).loc main_arg1))) :=
  (weights_keep (W2 m ρ c) main_v3 (by decide)).trans ((where_keep (W1 m ρ c) main_v3 (by decide)).trans (first_src (W0 m ρ c)))

theorem dst3 : W3 m ρ c (Proc.devRef .tc main_v6) = (Cert.ReferenceIdeal.ReadP.val_main_v6 (F := Ideal) (m ((c : Thread nD τ).loc main_arg1))) :=
  (weights_keep (W2 m ρ c) main_v6 (by decide)).trans ((where_keep (W1 m ρ c) main_v6 (by decide)).trans (first_dst (W0 m ρ c)))

/-- A node's weight in the reference's words. -/
theorem nodeWeight2 : W2 m ρ c (Proc.devRef .tc main_v14) = Cert.ReferenceIdeal.ReadP.val_main_v14 (F := Ideal) (m ((c : Thread nD τ).loc main_arg1)) := by
  refine (where_out (W1 m ρ c)).trans ?_
  rw [show W1 m ρ c (Proc.devRef .tc main_v12) = _ from first_pos (W0 m ρ c), show W1 m ρ c (Proc.devRef .tc main_v13) = _ from first_rsq (W0 m ρ c),
    show W1 m ρ c (Proc.devRef .tc main_cst_2) = _ from first_zero (W0 m ρ c)]
  rfl

theorem nrm3 : W3 m ρ c (Proc.devRef .tc main_v29) = (Cert.ReferenceIdeal.ReadP.val_main_v29 (F := Ideal) (m ((c : Thread nD τ).loc main_arg1))) := by
  refine (weights (W2 m ρ c)).trans ?_
  rw [nodeWeight2 m ρ c, show W2 m ρ c (Proc.devRef .tc main_v3) = _ from (where_keep (W1 m ρ c) main_v3 (by decide)).trans (first_src (W0 m ρ c)),
    show W2 m ρ c (Proc.devRef .tc main_v6) = _ from (where_keep (W1 m ρ c) main_v6 (by decide)).trans (first_dst (W0 m ρ c))]
  rfl

/-- No operation before the first region writes an argument. -/
theorem arg3 (b : Ref sig .tc) (hb : b = main_arg0 ∨ b = main_arg2 ∨ b = main_arg3 ∨ b = main_arg4 ∨ b = main_arg5 ∨ b = main_arg6 ∨ b = main_arg7) :
    W3 m ρ c (Proc.devRef .tc b) = m ((c : Thread nD τ).loc b) :=
  (weights_keep (W2 m ρ c) b (by tauto)).trans ((where_keep (W1 m ρ c) b (by tauto)).trans (first_keep (W0 m ρ c) b hb))

/-! ## At the first region's exit -/

/-- The first region leaves the product of the features with the first weight matrix. -/
theorem prod4 : W4 m ρ c (Proc.devRef .tc main_v30) = prod (R := 100000) (K := 512) (N := 128) (m ((c : Thread nD τ).loc main_arg0)) (m ((c : Thread nD τ).loc main_arg2)) := by
  refine (W4_arr m ρ c 2).trans ((out0_eq (V3 m ρ) c).trans ?_)
  rw [show V3 m ρ c main_arg0 = _ from arg3 m ρ c main_arg0 (by decide), show V3 m ρ c main_arg2 = _ from arg3 m ρ c main_arg2 (by decide)]

theorem src4 : W4 m ρ c (Proc.devRef .tc main_v3) = (Cert.ReferenceIdeal.ReadP.val_main_v3 (F := Ideal) (m ((c : Thread nD τ).loc main_arg1))) := (W4_of_ne m ρ c main_v3 (by decide)).trans (src3 m ρ c)
theorem dst4 : W4 m ρ c (Proc.devRef .tc main_v6) = (Cert.ReferenceIdeal.ReadP.val_main_v6 (F := Ideal) (m ((c : Thread nD τ).loc main_arg1))) := (W4_of_ne m ρ c main_v6 (by decide)).trans (dst3 m ρ c)
theorem nrm4 : W4 m ρ c (Proc.devRef .tc main_v29) = (Cert.ReferenceIdeal.ReadP.val_main_v29 (F := Ideal) (m ((c : Thread nD τ).loc main_arg1))) := (W4_of_ne m ρ c main_v29 (by decide)).trans (nrm3 m ρ c)
theorem arg4 (b : Ref sig .tc) (hb : b = main_arg3 ∨ b = main_arg4 ∨ b = main_arg5 ∨ b = main_arg6 ∨ b = main_arg7) :
    W4 m ρ c (Proc.devRef .tc b) = m ((c : Thread nD τ).loc b) :=
  (W4_of_ne m ρ c b (by rcases hb with rfl | rfl | rfl | rfl | rfl <;> decide)).trans (arg3 m ρ c b (by tauto))

/-! ## At the second region's entry -/

/-- The hidden layer. -/
theorem hid7 : W7 m ρ c (Proc.devRef .tc main_v47) = (relu (aggK (prod (R := 100000) (K := 512) (N := 128) (m ((c : Thread nD τ).loc main_arg0)) (m ((c : Thread nD τ).loc main_arg2))) (srcCol (Cert.ReferenceIdeal.ReadP.val_main_v3 (F := Ideal) (m ((c : Thread nD τ).loc main_arg1)))) (dstCol (Cert.ReferenceIdeal.ReadP.val_main_v6 (F := Ideal) (m ((c : Thread nD τ).loc main_arg1)))) (Cert.ReferenceIdeal.ReadP.val_main_v29 (F := Ideal) (m ((c : Thread nD τ).loc main_arg1))) (m ((c : Thread nD τ).loc main_arg3)))) := by
  refine (join_keep (W6 m ρ c) main_v47 (by decide)).trans ((relu_out (W5 m ρ c)).trans (congrArg relu ((agg1 (W4 m ρ c)).trans ?_)))
  rw [prod4 m ρ c, src4 m ρ c, dst4 m ρ c, nrm4 m ρ c, arg4 m ρ c main_arg3 (by decide)]

theorem keep7 (b : Ref sig .tc) (hb : b = main_v3 ∨ b = main_v6 ∨ b = main_v29) :
    W7 m ρ c (Proc.devRef .tc b) = W4 m ρ c (Proc.devRef .tc b) :=
  (join_keep (W6 m ρ c) b (by tauto)).trans ((relu_keep (W5 m ρ c) b (by tauto)).trans (agg1_keep (W4 m ρ c) b (by tauto)))

theorem arg6 (b : Ref sig .tc) (hb : b = main_arg4 ∨ b = main_arg5 ∨ b = main_arg6 ∨ b = main_arg7) :
    W6 m ρ c (Proc.devRef .tc b) = m ((c : Thread nD τ).loc b) :=
  (relu_keep (W5 m ρ c) b (by tauto)).trans ((agg1_keep (W4 m ρ c) b (by tauto)).trans (arg4 m ρ c b (by tauto)))

/-- The two heads' weight matrices side by side. -/
theorem joinW7 : W7 m ρ c (Proc.devRef .tc main_v48) = (concatenate S128x128 1 [⟨S128x64, (m ((c : Thread nD τ).loc main_arg4))⟩, ⟨S128x64, (m ((c : Thread nD τ).loc main_arg6))⟩] Facts₀.concatenates_S128x64_S128x64_S128x128_d1) := by
  refine (joinW (W6 m ρ c)).trans ?_
  rw [arg6 m ρ c main_arg4 (by decide), arg6 m ρ c main_arg6 (by decide)]

/-- The two heads' biases end to end. -/
theorem joinB7 : W7 m ρ c (Proc.devRef .tc main_v49) = (concatenate S128 0 [⟨S64, (m ((c : Thread nD τ).loc main_arg5))⟩, ⟨S64, (m ((c : Thread nD τ).loc main_arg7))⟩] Facts₀.concatenates_S64_S64_S128_d0) := by
  refine (joinB (W6 m ρ c)).trans ?_
  rw [arg6 m ρ c main_arg5 (by decide), arg6 m ρ c main_arg7 (by decide)]

/-! ## At the second region's exit -/

/-- The second region leaves the product of the hidden layer with the joined weights. -/
theorem prod8 : W8 m ρ c (Proc.devRef .tc main_v50) = (prod (R := 100000) (K := 128) (N := 128) (relu (aggK (prod (R := 100000) (K := 512) (N := 128) (m ((c : Thread nD τ).loc main_arg0)) (m ((c : Thread nD τ).loc main_arg2))) (srcCol (Cert.ReferenceIdeal.ReadP.val_main_v3 (F := Ideal) (m ((c : Thread nD τ).loc main_arg1)))) (dstCol (Cert.ReferenceIdeal.ReadP.val_main_v6 (F := Ideal) (m ((c : Thread nD τ).loc main_arg1)))) (Cert.ReferenceIdeal.ReadP.val_main_v29 (F := Ideal) (m ((c : Thread nD τ).loc main_arg1))) (m ((c : Thread nD τ).loc main_arg3)))) (concatenate S128x128 1 [⟨S128x64, (m ((c : Thread nD τ).loc main_arg4))⟩, ⟨S128x64, (m ((c : Thread nD τ).loc main_arg6))⟩] Facts₀.concatenates_S128x64_S128x64_S128x128_d1)) := by
  refine (W8_arr m ρ c 2).trans ((out1_eq (V7 m ρ) c).trans ?_)
  rw [show V7 m ρ c main_v47 = _ from hid7 m ρ c, show V7 m ρ c main_v48 = _ from joinW7 m ρ c]

theorem src8 : W8 m ρ c (Proc.devRef .tc main_v3) = (Cert.ReferenceIdeal.ReadP.val_main_v3 (F := Ideal) (m ((c : Thread nD τ).loc main_arg1))) :=
  (W8_of_ne m ρ c main_v3 (by decide)).trans ((keep7 m ρ c main_v3 (by decide)).trans (src4 m ρ c))
theorem dst8 : W8 m ρ c (Proc.devRef .tc main_v6) = (Cert.ReferenceIdeal.ReadP.val_main_v6 (F := Ideal) (m ((c : Thread nD τ).loc main_arg1))) :=
  (W8_of_ne m ρ c main_v6 (by decide)).trans ((keep7 m ρ c main_v6 (by decide)).trans (dst4 m ρ c))
theorem nrm8 : W8 m ρ c (Proc.devRef .tc main_v29) = (Cert.ReferenceIdeal.ReadP.val_main_v29 (F := Ideal) (m ((c : Thread nD τ).loc main_arg1))) :=
  (W8_of_ne m ρ c main_v29 (by decide)).trans ((keep7 m ρ c main_v29 (by decide)).trans (nrm4 m ρ c))
theorem joinB8 : W8 m ρ c (Proc.devRef .tc main_v49) = (concatenate S128 0 [⟨S64, (m ((c : Thread nD τ).loc main_arg5))⟩, ⟨S64, (m ((c : Thread nD τ).loc main_arg7))⟩] Facts₀.concatenates_S64_S64_S128_d0) :=
  (W8_of_ne m ρ c main_v49 (by decide)).trans (joinB7 m ρ c)

/-! ## At the return -/

/-- The first result. -/
theorem left9 : W9 m ρ c (Proc.devRef .tc main_v67)
    = extractStridedSlice S100000x64 ![0, 0] (aggK (prod (R := 100000) (K := 128) (N := 128) (relu (aggK (prod (R := 100000) (K := 512) (N := 128) (m ((c : Thread nD τ).loc main_arg0)) (m ((c : Thread nD τ).loc main_arg2))) (srcCol (Cert.ReferenceIdeal.ReadP.val_main_v3 (F := Ideal) (m ((c : Thread nD τ).loc main_arg1)))) (dstCol (Cert.ReferenceIdeal.ReadP.val_main_v6 (F := Ideal) (m ((c : Thread nD τ).loc main_arg1)))) (Cert.ReferenceIdeal.ReadP.val_main_v29 (F := Ideal) (m ((c : Thread nD τ).loc main_arg1))) (m ((c : Thread nD τ).loc main_arg3)))) (concatenate S128x128 1 [⟨S128x64, (m ((c : Thread nD τ).loc main_arg4))⟩, ⟨S128x64, (m ((c : Thread nD τ).loc main_arg6))⟩] Facts₀.concatenates_S128x64_S128x64_S128x128_d1)) (srcCol (Cert.ReferenceIdeal.ReadP.val_main_v3 (F := Ideal) (m ((c : Thread nD τ).loc main_arg1)))) (dstCol (Cert.ReferenceIdeal.ReadP.val_main_v6 (F := Ideal) (m ((c : Thread nD τ).loc main_arg1)))) (Cert.ReferenceIdeal.ReadP.val_main_v29 (F := Ideal) (m ((c : Thread nD τ).loc main_arg1))) (concatenate S128 0 [⟨S64, (m ((c : Thread nD τ).loc main_arg5))⟩, ⟨S64, (m ((c : Thread nD τ).loc main_arg7))⟩] Facts₀.concatenates_S64_S64_S128_d0)) Facts₀.slices_S100000x128_S100000x64_0_0 := by
  refine (left_out (W8 m ρ c)).trans ?_
  rw [prod8 m ρ c, src8 m ρ c, dst8 m ρ c, nrm8 m ρ c, joinB8 m ρ c]

/-- The second result. -/
theorem right9 : W9 m ρ c (Proc.devRef .tc main_v68)
    = extractStridedSlice S100000x64 ![0, 64] (aggK (prod (R := 100000) (K := 128) (N := 128) (relu (aggK (prod (R := 100000) (K := 512) (N := 128) (m ((c : Thread nD τ).loc main_arg0)) (m ((c : Thread nD τ).loc main_arg2))) (srcCol (Cert.ReferenceIdeal.ReadP.val_main_v3 (F := Ideal) (m ((c : Thread nD τ).loc main_arg1)))) (dstCol (Cert.ReferenceIdeal.ReadP.val_main_v6 (F := Ideal) (m ((c : Thread nD τ).loc main_arg1)))) (Cert.ReferenceIdeal.ReadP.val_main_v29 (F := Ideal) (m ((c : Thread nD τ).loc main_arg1))) (m ((c : Thread nD τ).loc main_arg3)))) (concatenate S128x128 1 [⟨S128x64, (m ((c : Thread nD τ).loc main_arg4))⟩, ⟨S128x64, (m ((c : Thread nD τ).loc main_arg6))⟩] Facts₀.concatenates_S128x64_S128x64_S128x128_d1)) (srcCol (Cert.ReferenceIdeal.ReadP.val_main_v3 (F := Ideal) (m ((c : Thread nD τ).loc main_arg1)))) (dstCol (Cert.ReferenceIdeal.ReadP.val_main_v6 (F := Ideal) (m ((c : Thread nD τ).loc main_arg1)))) (Cert.ReferenceIdeal.ReadP.val_main_v29 (F := Ideal) (m ((c : Thread nD τ).loc main_arg1))) (concatenate S128 0 [⟨S64, (m ((c : Thread nD τ).loc main_arg5))⟩, ⟨S64, (m ((c : Thread nD τ).loc main_arg7))⟩] Facts₀.concatenates_S64_S64_S128_d0)) Facts₀.slices_S100000x128_S100000x64_0_64 := by
  refine (right_out (W8 m ρ c)).trans ?_
  rw [prod8 m ρ c, src8 m ρ c, dst8 m ρ c, nrm8 m ρ c, joinB8 m ρ c]

end Cert.KernelIdeal.Bounds

end
-- ==== Proof.LibConcatCols.lean ====
/-
  Two matrices with the same rows set side by side: an `[R, a]` and an `[R, b]` matrix concatenated along the columns
  into `[R, c]`, read at `(p, k)`: the first matrix at `(p, k)` when `k < a`, the second at `(p, k - a)` otherwise.
  General over the extents and the element type.
-/
import Idealize.ShloMosaic.Lib.Pipeline.Value
import Idealize.ShloMosaic.Lib.ValueIdx

noncomputable section

namespace Cert.LibConcatCols

open Idealize.ShloMosaic Idealize.ShloMosaic.ValueIdx

variable {α : Type} {R a b c : ℕ}

/-- A column of the joined matrix that falls in the first piece. -/
theorem concat_cols_left (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ (1 : Fin 2)) (p : Fin R) (k : Fin c)
    (hk : k.val < a) :
    concatenate ⟨2, ![R, c]⟩ (1 : Fin 2) [⟨⟨2, ![R, a]⟩, x₁⟩, ⟨⟨2, ![R, b]⟩, x₂⟩] h (ix2 p k) = x₁ (ix2 p ⟨k.val, hk⟩) :=
  concatenate_pair_apply_left (1 : Fin 2) x₁ x₂ h (ix2 p k) rfl (ix2 p ⟨k.val, hk⟩) (fun d => by
    match d with
    | ⟨0, _⟩ => rfl
    | ⟨1, _⟩ => rfl)

/-- A column of the joined matrix that falls in the second piece. -/
theorem concat_cols_right (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ (1 : Fin 2)) (p : Fin R) (k : Fin c)
    (hk : a ≤ k.val) (hkb : k.val - a < b) :
    concatenate ⟨2, ![R, c]⟩ (1 : Fin 2) [⟨⟨2, ![R, a]⟩, x₁⟩, ⟨⟨2, ![R, b]⟩, x₂⟩] h (ix2 p k)
      = x₂ (ix2 p ⟨k.val - a, hkb⟩) :=
  concatenate_pair_apply_right (1 : Fin 2) x₁ x₂ h (ix2 p k) rfl rfl (ix2 p ⟨k.val - a, hkb⟩)
    (fun d hd => by
      match d with
      | ⟨0, _⟩ => rfl
      | ⟨1, _⟩ => exact absurd rfl hd)
    (by show k.val - a + a = k.val; omega)

end Cert.LibConcatCols

end
-- ==== Proof.Bridge.lean ====
/-
  The two programs compute the same two results.

  Both prepare the graph alike and compute the same hidden layer: the kernel's first region leaves the product the
  reference computes by a host product, and the aggregation and rectification after it are the same operations.  For
  the output layer the kernel multiplies the hidden layer by the two heads' weights set side by side; column `g` of that
  product is the hidden layer times column `g` of the first head's weights, and column `64 + g` that of the second
  head's, since an entry of a product reads one column of the right factor.  The joined biases read likewise.  By the
  law of the fused heads the kernel's two results are then the reference's two aggregations.
-/
import proofs.«159020_j3934190043984_1_alg».proof.Proof.KernelStages
import proofs.«159020_j3934190043984_1_alg».proof.Proof.RefRead
import proofs.«159020_j3934190043984_1_alg».proof.Proof.LibConcatCols
import proofs.«159020_j3934190043984_1_alg».proof.Proof.LibMatProd

set_option maxRecDepth 16384

noncomputable section

namespace Cert.Bridge

open Cert.KernelIdeal Idealize.ShloMosaic Idealize.ShloMosaic.ValueIdx
open Cert.Heads Cert.LibMatProd Cert.KernelIdeal.Stages

/-! ## The reference's stages in the words of the law -/

/-- The column of source rows is the reference's. -/
theorem srcCol_eq (x1 : IVec S2x1600000 32) : srcCol (Cert.ReferenceIdeal.ReadP.val_main_v3 (F := Ideal) x1) = Cert.ReferenceIdeal.ReadP.val_main_v54 (F := Ideal) x1 := rfl
theorem srcCol_eq' (x1 : IVec S2x1600000 32) : srcCol (Cert.ReferenceIdeal.ReadP.val_main_v3 (F := Ideal) x1) = Cert.ReferenceIdeal.ReadP.val_main_v71 (F := Ideal) x1 := rfl
/-- The column of destinations is the reference's. -/
theorem dstCol_eq (x1 : IVec S2x1600000 32) : dstCol (Cert.ReferenceIdeal.ReadP.val_main_v6 (F := Ideal) x1) = Cert.ReferenceIdeal.ReadP.val_main_v60 (F := Ideal) x1 := rfl
theorem dstCol_eq' (x1 : IVec S2x1600000 32) : dstCol (Cert.ReferenceIdeal.ReadP.val_main_v6 (F := Ideal) x1) = Cert.ReferenceIdeal.ReadP.val_main_v77 (F := Ideal) x1 := rfl

/-- The reference's first result is one aggregation of the hidden layer times the first head's weights. -/
theorem ref_left (x0 : FVec Ideal S100000x512 .f32) (x1 : IVec S2x1600000 32) (x2 : FVec Ideal S512x128 .f32) (x3 : FVec Ideal S128 .f32)
    (x4 : FVec Ideal S128x64 .f32) (x5 : FVec Ideal S64 .f32) (x6 : FVec Ideal S128x64 .f32) (x7 : FVec Ideal S64 .f32) :
    Cert.ReferenceIdeal.ReadP.val_main_v64 (F := Ideal) x0 x1 x2 x3 x4 x5
      = aggR (Cert.ReferenceIdeal.ReadP.val_main_v48 (F := Ideal) x0 x1 x2 x3 x4) (srcCol (Cert.ReferenceIdeal.ReadP.val_main_v3 (F := Ideal) x1)) (dstCol (Cert.ReferenceIdeal.ReadP.val_main_v6 (F := Ideal) x1)) (Cert.ReferenceIdeal.ReadP.val_main_v29 (F := Ideal) x1) x5 := rfl

/-- The reference's second result, likewise with the second head's weights. -/
theorem ref_right (x0 : FVec Ideal S100000x512 .f32) (x1 : IVec S2x1600000 32) (x2 : FVec Ideal S512x128 .f32) (x3 : FVec Ideal S128 .f32)
    (x4 : FVec Ideal S128x64 .f32) (x5 : FVec Ideal S64 .f32) (x6 : FVec Ideal S128x64 .f32) (x7 : FVec Ideal S64 .f32) :
    Cert.ReferenceIdeal.ReadP.val_main_v81 (F := Ideal) x0 x1 x2 x3 x6 x7
      = aggR (Cert.ReferenceIdeal.ReadP.val_main_v65 (F := Ideal) x0 x1 x2 x3 x6) (srcCol (Cert.ReferenceIdeal.ReadP.val_main_v3 (F := Ideal) x1)) (dstCol (Cert.ReferenceIdeal.ReadP.val_main_v6 (F := Ideal) x1)) (Cert.ReferenceIdeal.ReadP.val_main_v29 (F := Ideal) x1) x7 := rfl

/-- The first product: the kernel's whole-matrix product is the reference's host product. -/
theorem first_prod (x0 : FVec Ideal S100000x512 .f32) (x2 : FVec Ideal S512x128 .f32) :
    prod (R := 100000) (K := 512) (N := 128) x0 x2 = Cert.ReferenceIdeal.ReadP.val_main_v30 (F := Ideal) x0 x2 :=
  (host_prod_eq x0 x2).symm

/-- The hidden layer is the reference's. -/
theorem hidden_eq (x0 : FVec Ideal S100000x512 .f32) (x1 : IVec S2x1600000 32) (x2 : FVec Ideal S512x128 .f32) (x3 : FVec Ideal S128 .f32) :
    (relu (aggK (prod (R := 100000) (K := 512) (N := 128) x0 x2) (srcCol (Cert.ReferenceIdeal.ReadP.val_main_v3 (F := Ideal) x1)) (dstCol (Cert.ReferenceIdeal.ReadP.val_main_v6 (F := Ideal) x1)) (Cert.ReferenceIdeal.ReadP.val_main_v29 (F := Ideal) x1) x3)) = Cert.ReferenceIdeal.ReadP.val_main_v47 (F := Ideal) x0 x1 x2 x3 := by
  rw [first_prod]
  rfl

/-- A head's product in the reference is the whole-matrix product of the hidden layer with that head's weights. -/
theorem head_prod (H : FVec Ideal S100000x128 .f32) (W : FVec Ideal S128x64 .f32) :
    Host.dotGeneral Cert.ReferenceIdeal.dot_S100000x128_S128x64_S100000x64_1_0_0_1_n_n none H W
      = prod (R := 100000) (K := 128) (N := 64) H W :=
  host_prod_eq H W

/-! ## The two results -/

/-- THE FIRST RESULT. -/
theorem left_eq (x0 : FVec Ideal S100000x512 .f32) (x1 : IVec S2x1600000 32) (x2 : FVec Ideal S512x128 .f32) (x3 : FVec Ideal S128 .f32)
    (x4 : FVec Ideal S128x64 .f32) (x5 : FVec Ideal S64 .f32) (x6 : FVec Ideal S128x64 .f32) (x7 : FVec Ideal S64 .f32) :
    extractStridedSlice S100000x64 ![0, 0] (aggK (prod (R := 100000) (K := 128) (N := 128) (relu (aggK (prod (R := 100000) (K := 512) (N := 128) x0 x2) (srcCol (Cert.ReferenceIdeal.ReadP.val_main_v3 (F := Ideal) x1)) (dstCol (Cert.ReferenceIdeal.ReadP.val_main_v6 (F := Ideal) x1)) (Cert.ReferenceIdeal.ReadP.val_main_v29 (F := Ideal) x1) x3)) (concatenate S128x128 1 [⟨S128x64, x4⟩, ⟨S128x64, x6⟩] Facts₀.concatenates_S128x64_S128x64_S128x128_d1)) (srcCol (Cert.ReferenceIdeal.ReadP.val_main_v3 (F := Ideal) x1)) (dstCol (Cert.ReferenceIdeal.ReadP.val_main_v6 (F := Ideal) x1)) (Cert.ReferenceIdeal.ReadP.val_main_v29 (F := Ideal) x1) (concatenate S128 0 [⟨S64, x5⟩, ⟨S64, x7⟩] Facts₀.concatenates_S64_S64_S128_d0)) Facts₀.slices_S100000x128_S100000x64_0_0
      = Cert.ReferenceIdeal.ReadP.val_main_v64 (F := Ideal) x0 x1 x2 x3 x4 x5 := by
  rw [ref_left x0 x1 x2 x3 x4 x5 x6 x7]
  refine head_left _ _ _ _ _ _ _ (fun r g => ?_) (fun g => ?_)
  · show _ = Host.dotGeneral Cert.ReferenceIdeal.dot_S100000x128_S128x64_S100000x64_1_0_0_1_n_n none (Cert.ReferenceIdeal.ReadP.val_main_v47 (F := Ideal) x0 x1 x2 x3) x4 (ix2 r g)
    rw [head_prod, prod_apply, prod_apply, hidden_eq]
    exact prodAt_congr _ _ _ _ _ _ _ _ (fun k => rfl) (fun k =>
      Cert.LibConcatCols.concat_cols_left x4 x6 Facts₀.concatenates_S128x64_S128x64_S128x128_d1 k ⟨g.val, by omega⟩ g.isLt)
  · exact concatenate_pair_apply_left (0 : Fin 1) x5 x7 Facts₀.concatenates_S64_S64_S128_d0 (ix1 (⟨g.val, by omega⟩ : Fin 128)) rfl (ix1 g)
      (fun b => by match b with | ⟨0, _⟩ => rfl)

/-- THE SECOND RESULT. -/
theorem right_eq (x0 : FVec Ideal S100000x512 .f32) (x1 : IVec S2x1600000 32) (x2 : FVec Ideal S512x128 .f32) (x3 : FVec Ideal S128 .f32)
    (x4 : FVec Ideal S128x64 .f32) (x5 : FVec Ideal S64 .f32) (x6 : FVec Ideal S128x64 .f32) (x7 : FVec Ideal S64 .f32) :
    extractStridedSlice S100000x64 ![0, 64] (aggK (prod (R := 100000) (K := 128) (N := 128) (relu (aggK (prod (R := 100000) (K := 512) (N := 128) x0 x2) (srcCol (Cert.ReferenceIdeal.ReadP.val_main_v3 (F := Ideal) x1)) (dstCol (Cert.ReferenceIdeal.ReadP.val_main_v6 (F := Ideal) x1)) (Cert.ReferenceIdeal.ReadP.val_main_v29 (F := Ideal) x1) x3)) (concatenate S128x128 1 [⟨S128x64, x4⟩, ⟨S128x64, x6⟩] Facts₀.concatenates_S128x64_S128x64_S128x128_d1)) (srcCol (Cert.ReferenceIdeal.ReadP.val_main_v3 (F := Ideal) x1)) (dstCol (Cert.ReferenceIdeal.ReadP.val_main_v6 (F := Ideal) x1)) (Cert.ReferenceIdeal.ReadP.val_main_v29 (F := Ideal) x1) (concatenate S128 0 [⟨S64, x5⟩, ⟨S64, x7⟩] Facts₀.concatenates_S64_S64_S128_d0)) Facts₀.slices_S100000x128_S100000x64_0_64
      = Cert.ReferenceIdeal.ReadP.val_main_v81 (F := Ideal) x0 x1 x2 x3 x6 x7 := by
  rw [ref_right x0 x1 x2 x3 x4 x5 x6 x7]
  refine head_right _ _ _ _ _ _ _ (fun r g => ?_) (fun g => ?_)
  · show _ = Host.dotGeneral Cert.ReferenceIdeal.dot_S100000x128_S128x64_S100000x64_1_0_0_1_n_n none (Cert.ReferenceIdeal.ReadP.val_main_v47 (F := Ideal) x0 x1 x2 x3) x6 (ix2 r g)
    rw [head_prod, prod_apply, prod_apply, hidden_eq]
    exact prodAt_congr _ _ _ _ _ _ _ _ (fun k => rfl) (fun k =>
      (Cert.LibConcatCols.concat_cols_right x4 x6 Facts₀.concatenates_S128x64_S128x64_S128x128_d1 k ⟨64 + g.val, by omega⟩
        (by show 64 ≤ 64 + g.val; omega) (by show 64 + g.val - 64 < 64; omega)).trans
        (congrArg x6 (congrArg (ix2 k) (Fin.ext (by show 64 + g.val - 64 = g.val; omega)))))
  · exact concatenate_pair_apply_right (0 : Fin 1) x5 x7 Facts₀.concatenates_S64_S64_S128_d0 (ix1 (⟨64 + g.val, by omega⟩ : Fin 128)) rfl rfl (ix1 g)
      (fun b hb => by match b with | ⟨0, _⟩ => exact absurd rfl hb) (by show g.val + 64 = 64 + g.val; omega)

end Cert.Bridge

end
-- ==== Proof.lean ====
/-
  The certificate of a two-layer graph convolution encoder with two output heads, over 100000 nodes and 1600000 edges.

  The kernel computes the two dense products on the device (each a region of 25 row blocks) and everything else on the
  host; for the output layer it sets the two heads' weights side by side, multiplies once, aggregates once, and cuts the
  result in two.  The reference computes a separate product and aggregation for each head.  On the extended reals the
  two programs' results are equal entry by entry, because an aggregation acts on each column of its table by itself
  (Proof/FusedHeads.lean) and a column of a product reads one column of the right factor (Proof/Bridge.lean).

  The three frames: the two kernels' are the generated frame proofs; the reference's is its run with the results dropped.
  The kernel's idealization rewrites nothing.  The kernel's run with its results named is Proof/KernelRun.lean, its
  regions' outputs Proof/KernelRegions.lean, its host stretches Proof/KernelStages.lean and Proof/KernelBounds.lean.
-/
import proofs.«159020_j3934190043984_1_alg».proof.Defs
import proofs.«159020_j3934190043984_1_alg».proof.Proof.Gen.Kernel
import proofs.«159020_j3934190043984_1_alg».proof.Proof.Gen.Kernel.Skeleton
import proofs.«159020_j3934190043984_1_alg».proof.Proof.Gen.Kernel.Launch
import proofs.«159020_j3934190043984_1_alg».proof.Proof.Gen.Kernel.Points
import proofs.«159020_j3934190043984_1_alg».proof.Proof.Gen.Kernel.Frame
import proofs.«159020_j3934190043984_1_alg».proof.Proof.Gen.KernelIdeal
import proofs.«159020_j3934190043984_1_alg».proof.Proof.Gen.KernelIdeal.Skeleton
import proofs.«159020_j3934190043984_1_alg».proof.Proof.Gen.KernelIdeal.Launch
import proofs.«159020_j3934190043984_1_alg».proof.Proof.Gen.KernelIdeal.Points
import proofs.«159020_j3934190043984_1_alg».proof.Proof.Gen.KernelIdeal.Frame
import proofs.«159020_j3934190043984_1_alg».proof.Proof.Gen.ReferenceIdeal
import proofs.«159020_j3934190043984_1_alg».proof.Proof.Gen.Pre_finite_inputs
import proofs.«159020_j3934190043984_1_alg».proof.Proof.RefRun
import proofs.«159020_j3934190043984_1_alg».proof.Proof.RefRead
import proofs.«159020_j3934190043984_1_alg».proof.Proof.KernelRun
import proofs.«159020_j3934190043984_1_alg».proof.Proof.KernelBounds
import proofs.«159020_j3934190043984_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories that agree on the eight arguments both programs run, and end with the same two results: the
    kernel's are the last boundary's contents at the result buffers (named in Proof/KernelBounds.lean), the
    reference's its two stages (Proof/RefRead.lean), and the two are equal by Proof/Bridge.lean. -/
theorem algebraic : Cert.algebraic_KernelIdeal_ReferenceIdeal := by
  intro m ρ m' ρ' _ hagree
  refine ⟨fun c => Cert.KernelIdeal.Gen.W9 m ρ c (Proc.devRef .tc Cert.KernelIdeal.main_v67),
    fun c => Cert.KernelIdeal.Gen.W9 m ρ c (Proc.devRef .tc Cert.KernelIdeal.main_v68), Cert.KernelIdeal.Run.run m ρ, ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · obtain ⟨h0, h1, h2, h3, h4, h5, h6, h7⟩ := hagree c
    rw [Cert.ReferenceIdeal.ReadP.val_main_v64_eq, h0, h1, h2, h3, h4, h5]
    exact ((Cert.KernelIdeal.Bounds.left9 m ρ c).trans (Cert.Bridge.left_eq _ _ _ _ _ _ _ _)).symm
  · obtain ⟨h0, h1, h2, h3, h4, h5, h6, h7⟩ := hagree c
    rw [Cert.ReferenceIdeal.ReadP.val_main_v81_eq, h0, h1, h2, h3, h6, h7]
    exact ((Cert.KernelIdeal.Bounds.right9 m ρ c).trans (Cert.Bridge.right_eq _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
